-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S2000x128 : Shape := ⟨2, ![2000, 128]⟩
abbrev S900000x128 : Shape := ⟨2, ![900000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x800000, .i32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x128, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x128, .f32⟩
  | .hbm, ⟨56, _⟩ => ⟨S900000x1, .f32⟩
  | .hbm, ⟨57, _⟩ => ⟨S900000x128, .f32⟩
  | .hbm, ⟨58, _⟩ => ⟨S900000x128, .f32⟩
  | .hbm, ⟨59, _⟩ => ⟨S_, .f32⟩
  | .hbm, ⟨60, _⟩ => ⟨S100000x128, .f32⟩
  | .hbm, ⟨61, _⟩ => ⟨S900000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S900000, .i32⟩
  | .hbm, ⟨68, _⟩ => ⟨S900000, .i1⟩
  | .hbm, ⟨69, _⟩ => ⟨S_, .i32⟩
  | .hbm, ⟨70, _⟩ => ⟨S900000, .i32⟩
  | .hbm, ⟨71, _⟩ => ⟨S900000, .i32⟩
  | .hbm, ⟨72, _⟩ => ⟨S900000, .i32⟩
  | .hbm, ⟨73, _⟩ => ⟨S900000x1, .i32⟩
  | .hbm, ⟨74, _⟩ => ⟨S900000x128, .f32⟩
  | .hbm, ⟨75, _⟩ => ⟨S900000x1, .f32⟩
  | .hbm, ⟨76, _⟩ => ⟨S900000x128, .f32⟩
  | .hbm, ⟨77, _⟩ => ⟨S900000x128, .f32⟩
  | .hbm, ⟨78, _⟩ => ⟨S_, .f32⟩
  | .hbm, ⟨79, _⟩ => ⟨S100000x128, .f32⟩
  | .hbm, ⟨80, _⟩ => ⟨S900000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S2000x128_S128x128_S2000x128_1_0_0_1_n_n_wf : DotDims.WF S2000x128 S128x128 S2000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x800000, .i32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x128, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x128, .f32⟩
  | .hbm, ⟨56, _⟩ => ⟨S900000x1, .f32⟩
  | .hbm, ⟨57, _⟩ => ⟨S900000x128, .f32⟩
  | .hbm, ⟨58, _⟩ => ⟨S900000x128, .f32⟩
  | .hbm, ⟨59, _⟩ => ⟨S_, .f32⟩
  | .hbm, ⟨60, _⟩ => ⟨S100000x128, .f32⟩
  | .hbm, ⟨61, _⟩ => ⟨S900000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x128, .f32⟩
  | .hbm, ⟨79, _⟩ => ⟨S900000x1, .f32⟩
  | .hbm, ⟨80, _⟩ => ⟨S900000x128, .f32⟩
  | .hbm, ⟨81, _⟩ => ⟨S900000x128, .f32⟩
  | .hbm, ⟨82, _⟩ => ⟨S_, .f32⟩
  | .hbm, ⟨83, _⟩ => ⟨S100000x128, .f32⟩
  | .hbm, ⟨84, _⟩ => ⟨S900000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.KernelRun.lean ====
/-
  The idealized kernel's whole run with its final memory READ: @main is nine segments in order — three stretches of host
  operations (the edge lists with their self-loops, the degrees and their inverse square roots, the edge weights), the first
  matrix product's region, a stretch (gather, weight, scatter-add, and the bias laid out as a row), the first bias-and-ReLU
  region, the second matrix product's region, a stretch (the same message passing again) and the second bias-and-ReLU
  region. The generated frame certificate already walks the TensorCore's buffer contents through those nine boundaries
  (`W0`, the launch memory, to `W9`) and proves that every weakly fair execution terminates with every buffer outside the
  kernels' scratch at its `W9` contents; it then keeps of that only the six argument arrays. Here the same launch is stated
  with the whole reading kept (`reads_final`), and from it the run whose post names the result array `W9` holds (`run`).
  What `W9` holds at the result is the business of the value modules; nothing here looks inside a kernel body.
-/
import proofs.«149474_j60567628808242_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, and in every final state each buffer outside
    the kernels' scratch holds what the fold through the nine segments leaves there. -/
theorem reads_final : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result array named: it ends at the last region's exit contents, and the six arguments as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (reads_final m ρ)

end Cert.KernelIdeal.Run

end
-- ==== Proof.MessagePassing.lean ====
/-
  The part of a graph-convolution layer that both programs leave to the host, named once: from the `[2, E]` edge array, the
  source and target lists with one self-loop per node appended; Python's wrap-around of a negative index; each node's degree
  (a scatter-add of ones over the targets), its inverse square root where the degree is positive and zero elsewhere; the
  weight of an edge (the product of the two ends' inverse square roots); and one propagation step — gather the rows of `T` at
  the sources, scale each by its edge's weight, and scatter-add them into the rows at the targets, starting from zeros.
  These are compositions of the host's own operations, spelt as the two programs spell them, over any float instance; nothing
  is proved about them here. They exist so that "what a buffer holds after a stretch of host operations" can be written in
  a line.
-/
import proofs.«149474_j60567628808242_1_alg».proof.Proof.Gen.KernelIdeal

noncomputable section

namespace Cert.KernelIdeal.Glue

open Cert.KernelIdeal Cert.KernelIdeal.Facts₀ Cert.KernelIdeal.Facts Idealize.ShloMosaic

variable {F : FTy → Type} [FloatOps F]

/-- The edges' sources, then the nodes themselves (the self-loops). -/
def srcs (e : (⟨S2x800000, .i32⟩ : BufTy).Contents (Elt F)) : (⟨S900000, .i32⟩ : BufTy).Contents (Elt F) :=
  concatenate S900000 0 [⟨S800000, shapeCast S800000 (extractStridedSlice S1x800000 ![0, 0] e slices_S2x800000_S1x800000_0_0) shapeCasts_S1x800000_S800000⟩,
    ⟨S100000, iotaInDim S100000 32 0⟩] concatenates_S800000_S100000_S900000_d0

/-- The edges' targets, then the nodes themselves. -/
def dsts (e : (⟨S2x800000, .i32⟩ : BufTy).Contents (Elt F)) : (⟨S900000, .i32⟩ : BufTy).Contents (Elt F) :=
  concatenate S900000 0 [⟨S800000, shapeCast S800000 (extractStridedSlice S1x800000 ![1, 0] e slices_S2x800000_S1x800000_1_0) shapeCasts_S1x800000_S800000⟩,
    ⟨S100000, iotaInDim S100000 32 0⟩] concatenates_S800000_S100000_S900000_d0

/-- A negative index counts from the end: `v + 100000` where `v < 0`, `v` elsewhere. -/
def wrap (v : (⟨S900000, .i32⟩ : BufTy).Contents (Elt F)) : (⟨S900000, .i32⟩ : BufTy).Contents (Elt F) :=
  select (cmpi .slt v (broadcastInDim S900000 ![] bcast_S_S900000 (constantI S_ 32 0#32)))
    (addi v (broadcastInDim S900000 ![] bcast_S_S900000 (constantI S_ 32 100000#32))) v

/-- Each node's degree: ones scatter-added over the targets into zeros. -/
def degree (dst : (⟨S900000, .i32⟩ : BufTy).Contents (Elt F)) : (⟨S100000, .f32⟩ : BufTy).Contents (Elt F) :=
  Host.scatterAdd scatter_S100000_S900000x1_S900000_n_0_0_1 (broadcastInDim S100000 ![] bcast_S_S100000 (constant (F := F) S_ .f32 0x00000000#32))
    (broadcastInDim S900000x1 ![0] bcast_S900000_S900000x1_0 dst) (broadcastInDim S900000 ![] bcast_S_S900000 (constant (F := F) S_ .f32 0x3F800000#32))

/-- The choice `where(pos, r, z)`: `r` where the test `pos` holds, the scalar `z` elsewhere. -/
def invSqrtOf (pos : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select pos r (broadcastInDim S100000 ![] bcast_S_S100000 (id z))

/-- The test "this node's degree is positive". -/
def degreePositive (dst : (⟨S900000, .i32⟩ : BufTy).Contents (Elt F)) : (⟨S100000, .i1⟩ : BufTy).Contents (Elt F) :=
  cmpf (F := F) .ogt (degree dst) (broadcastInDim S100000 ![] bcast_S_S100000 (constant (F := F) S_ .f32 0x00000000#32))

/-- The inverse square root of every node's degree, wherever it is defined. -/
def degreeRsqrt (dst : (⟨S900000, .i32⟩ : BufTy).Contents (Elt F)) : (⟨S100000, .f32⟩ : BufTy).Contents (Elt F) :=
  Host.rsqrt (degree dst)

/-- The scalar zero. -/
def zeroScalar : (⟨S_, .f32⟩ : BufTy).Contents (Elt F) := constant (F := F) S_ .f32 0x00000000#32

/-- `degree ^ (-1/2)` where the degree is positive, zero elsewhere. -/
def invSqrtDegree (dst : (⟨S900000, .i32⟩ : BufTy).Contents (Elt F)) : (⟨S100000, .f32⟩ : BufTy).Contents (Elt F) :=
  invSqrtOf (degreePositive dst) (degreeRsqrt dst) zeroScalar

/-- A bias vector laid out as one `[1, 128]` row, as a pallas_call receives it. -/
def biasRow (b : (⟨S128, .f32⟩ : BufTy).Contents (Elt F)) : (⟨S1x128, .f32⟩ : BufTy).Contents (Elt F) :=
  shapeCast S1x128 b shapeCasts_S128_S1x128

/-- An edge's weight from a table `d` of per-node factors: the product of the factors at its two ends. -/
def edgeWeightOf (d : (⟨S100000, .f32⟩ : BufTy).Contents (Elt F)) (src dst : (⟨S900000, .i32⟩ : BufTy).Contents (Elt F)) :
    (⟨S900000, .f32⟩ : BufTy).Contents (Elt F) :=
  mulf (Host.gather gather_S100000_S900000x1_S900000_n_0_n_n_0_1_1 d (broadcastInDim S900000x1 ![0] bcast_S900000_S900000x1_0 (wrap src)))
    (Host.gather gather_S100000_S900000x1_S900000_n_0_n_n_0_1_1 d (broadcastInDim S900000x1 ![0] bcast_S900000_S900000x1_0 (wrap dst)))

/-- An edge's weight: the product of its two ends' inverse square root degrees. -/
def edgeWeight (src dst : (⟨S900000, .i32⟩ : BufTy).Contents (Elt F)) : (⟨S900000, .f32⟩ : BufTy).Contents (Elt F) :=
  edgeWeightOf (invSqrtDegree dst) src dst

/-- One propagation step: rows of `T` gathered at the sources, scaled by the edge weights, scatter-added at the targets. -/
def propagate (src dst : (⟨S900000, .i32⟩ : BufTy).Contents (Elt F)) (w : (⟨S900000, .f32⟩ : BufTy).Contents (Elt F))
    (T : (⟨S100000x128, .f32⟩ : BufTy).Contents (Elt F)) : (⟨S100000x128, .f32⟩ : BufTy).Contents (Elt F) :=
  Host.scatterAdd scatter_S100000x128_S900000x1_S900000x128_1_0_0_1 (broadcastInDim S100000x128 ![] bcast_S_S100000x128 (constant (F := F) S_ .f32 0x00000000#32))
    (broadcastInDim S900000x1 ![0] bcast_S900000_S900000x1_0 dst)
    (mulf (Host.gather gather_S100000x128_S900000x1_S900000x128_1_0_n_n_0_1_1128 T (broadcastInDim S900000x1 ![0] bcast_S900000_S900000x1_0 (wrap src)))
      (broadcastInDim S900000x128 ![0, 1] bcast_S900000x1_S900000x128_0_1 (broadcastInDim S900000x1 ![0] bcast_S900000_S900000x1_0 w)))

end Cert.KernelIdeal.Glue

end
-- ==== Proof.Edges.lean ====
/-
  What the buffers hold when the first pallas_call is entered, after @main's three leading stretches of host operations:
  the source list, the target list and the edge weights are the named functions of the edge array (Glue), and the five
  float arguments are as launched. Each fact is the stretch's operations evaluated at one buffer: an operation's result at
  its own buffer is its function of its operands' buffers, and at any other buffer what was there before.
-/
import proofs.«149474_j60567628808242_1_alg».proof.Proof.Gen.KernelIdeal.Frame
import proofs.«149474_j60567628808242_1_alg».proof.Proof.MessagePassing
import Idealize.ShloMosaic.Lib.StableHlo.Run
import Idealize.ShloMosaic.PureOps.Ideal

set_option maxRecDepth 16384

noncomputable section

namespace Cert.KernelIdeal.Edges

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source list with its self-loops. -/
theorem sources : W3 m ρ c (Proc.devRef .tc main_v3) = Glue.srcs (m ((c.tc : Thread nD τ).loc main_arg5)) := by
  show StableHlo.after hostOps0_2 (StableHlo.after hostOps0_1 (StableHlo.after hostOps0 (W0 m ρ c))) (Proc.devRef .tc main_v3) = _
  after_results <;> rfl

/-- The target list with its self-loops. -/
theorem targets : W3 m ρ c (Proc.devRef .tc main_v6) = Glue.dsts (m ((c.tc : Thread nD τ).loc main_arg5)) := by
  show StableHlo.after hostOps0_2 (StableHlo.after hostOps0_1 (StableHlo.after hostOps0 (W0 m ρ c))) (Proc.devRef .tc main_v6) = _
  after_results <;> rfl

/-! ## The edge weights, one stretch at a time over any contents `V` -/

section Stretches
variable (V : Valuation τ sig (Elt Ideal))

theorem lead_sources : StableHlo.after hostOps0 V (Proc.devRef .tc main_v3) = Glue.srcs (F := Ideal) (V (Proc.devRef .tc main_arg5)) := by
  after_results <;> rfl
theorem lead_targets : StableHlo.after hostOps0 V (Proc.devRef .tc main_v6) = Glue.dsts (F := Ideal) (V (Proc.devRef .tc main_arg5)) := by
  after_results <;> rfl
/-- The test "the degree is positive". -/
theorem lead_positive : StableHlo.after hostOps0 V (Proc.devRef .tc main_v12) = Glue.degreePositive (F := Ideal) (Glue.dsts (F := Ideal) (V (Proc.devRef .tc main_arg5))) := by
  after_results <;> rfl
theorem lead_rsqrt : StableHlo.after hostOps0 V (Proc.devRef .tc main_v13) = Glue.degreeRsqrt (F := Ideal) (Glue.dsts (F := Ideal) (V (Proc.devRef .tc main_arg5))) := by
  after_results <;> rfl
theorem lead_zero : StableHlo.after hostOps0 V (Proc.devRef .tc main_cst_2) = Glue.zeroScalar (F := Ideal) := by
  after_results <;> rfl
/-- The outlined `where`: the inverse square root where the degree is positive, zero elsewhere. -/
theorem where_result : StableHlo.after hostOps0_1 V (Proc.devRef .tc main_v14)
    = Glue.invSqrtOf (F := Ideal) (V (Proc.devRef .tc main_v12)) (V (Proc.devRef .tc main_v13)) (V (Proc.devRef .tc main_cst_2)) := by
  after_results <;> rfl
theorem where_keeps_sources : StableHlo.after hostOps0_1 V (Proc.devRef .tc main_v3) = V (Proc.devRef .tc main_v3) := by
  after_results <;> rfl
theorem where_keeps_targets : StableHlo.after hostOps0_1 V (Proc.devRef .tc main_v6) = V (Proc.devRef .tc main_v6) := by
  after_results <;> rfl
theorem weight_stretch : StableHlo.after hostOps0_2 V (Proc.devRef .tc main_v29)
    = Glue.edgeWeightOf (F := Ideal) (V (Proc.devRef .tc main_v14)) (V (Proc.devRef .tc main_v3)) (V (Proc.devRef .tc main_v6)) := by
  after_results_simp <;> rfl

end Stretches

/-- The edge weights. -/
theorem weights : W3 m ρ c (Proc.devRef .tc main_v29)
    = Glue.edgeWeight (Glue.srcs (m ((c.tc : Thread nD τ).loc main_arg5))) (Glue.dsts (m ((c.tc : Thread nD τ).loc main_arg5))) := by
  show StableHlo.after hostOps0_2 (W2 m ρ c) (Proc.devRef .tc main_v29) = _
  rw [weight_stretch]
  show Glue.edgeWeightOf (F := Ideal) (StableHlo.after hostOps0_1 (W1 m ρ c) (Proc.devRef .tc main_v14)) (StableHlo.after hostOps0_1 (W1 m ρ c) (Proc.devRef .tc main_v3)) (StableHlo.after hostOps0_1 (W1 m ρ c) (Proc.devRef .tc main_v6)) = _
  rw [where_result, where_keeps_sources, where_keeps_targets]
  show Glue.edgeWeightOf (F := Ideal) (Glue.invSqrtOf (F := Ideal) (StableHlo.after hostOps0 (W0 m ρ c) (Proc.devRef .tc main_v12)) (StableHlo.after hostOps0 (W0 m ρ c) (Proc.devRef .tc main_v13)) (StableHlo.after hostOps0 (W0 m ρ c) (Proc.devRef .tc main_cst_2)))
      (StableHlo.after hostOps0 (W0 m ρ c) (Proc.devRef .tc main_v3)) (StableHlo.after hostOps0 (W0 m ρ c) (Proc.devRef .tc main_v6)) = _
  rw [lead_positive, lead_rsqrt, lead_zero, lead_sources, lead_targets]
  rfl

/-- Argument 0 is untouched by the leading host operations. -/
theorem arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results <;> rfl

/-- Argument 1 is untouched by the leading host operations. -/
theorem arg1 : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results <;> rfl

/-- Argument 2 is untouched by the leading host operations. -/
theorem arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results <;> rfl

/-- Argument 3 is untouched by the leading host operations. -/
theorem arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results <;> rfl

/-- Argument 4 is untouched by the leading host operations. -/
theorem arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results <;> rfl

end Cert.KernelIdeal.Edges

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.GcnLayers.lean ====
/-
  The two dense stages of a graph-convolution layer, each as ONE function of whole arrays on the extended reals, and each
  read at an entry in the two spellings a program gives it.

  * `lin X W` is the matrix product: entry `(r, c)` is the sum over `k` of `X (r, k) · W (k, c)`. A vector unit computes a
    block of rows of it as a product of the block, rounded to bfloat16 (the identity on the extended reals), with `W`
    into a zero accumulator (`0 + s = s` for every extended real `s`); the host computes all rows with one
    `dot_general`. Both are the same sum of the same products, term by term.
  * `biasRelu A b` adds `b c` to every entry of column `c` and floors the result at zero. A vector unit receives the bias as a
    `[1, C]` row and repeats it down the rows of the block; the host broadcasts the vector to one row and then down all rows.

  Entry `(r, c)` of either stage depends on row `r` of its first operand only, which is why a block of rows of the stage is
  the stage of that block of rows. No law of arithmetic beyond `0 + s = s` is used, so nothing here needs the entries to
  be finite.
-/
import proofs.«149474_j60567628808242_1_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx
open scoped BigOperators

/-- The matrix product `X · W`, entry by entry. -/
def lin {R K C : ℕ} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- `max (A + b, 0)` with the vector `b` added along the rows; the floor is the value of the binary32 zero word. -/
def biasRelu {R C : ℕ} (A : (⟨2, ![R, C]⟩ : Shape).Idx → EReal) (b : (⟨1, ![C]⟩ : Shape).Idx → EReal) :
    (⟨2, ![R, C]⟩ : Shape).Idx → EReal :=
  fun i => max (A i + b (ix1 (i 1))) (Ideal.ofBits .f32 0x00000000#32)

theorem lin_ix2 {R K C : ℕ} (X : (⟨2, ![R, K]⟩ : Shape).Idx → EReal) (W : (⟨2, ![K, C]⟩ : Shape).Idx → EReal) (r : Fin R) (c : Fin C) :
    lin X W (ix2 r c) = ∑ k : Fin K, X (ix2 r k) * W (ix2 k c) := rfl

theorem biasRelu_ix2 {R C : ℕ} (A : (⟨2, ![R, C]⟩ : Shape).Idx → EReal) (b : (⟨1, ![C]⟩ : Shape).Idx → EReal) (r : Fin R) (c : Fin C) :
    biasRelu A b (ix2 r c) = max (A (ix2 r c) + b (ix1 c)) (Ideal.ofBits .f32 0x00000000#32) := rfl

/-- A block whose row `p` is row `i 0` of `X`, against weights whose column `q` is column `i 1` of `W`: the row times the column is
    entry `i` of the whole product. -/
theorem lin_of_rows {R K C B : ℕ} (X : (⟨2, ![R, K]⟩ : Shape).Idx → EReal) (W : (⟨2, ![K, C]⟩ : Shape).Idx → EReal)
    (xb : (⟨2, ![B, K]⟩ : Shape).Idx → EReal) (wb : (⟨2, ![K, C]⟩ : Shape).Idx → EReal)
    (i : (⟨2, ![R, C]⟩ : Shape).Idx) (p : Fin B) (q : Fin C)
    (hx : ∀ k : Fin K, xb (ix2 p k) = X (ix2 (i 0) k)) (hw : ∀ k : Fin K, wb (ix2 k q) = W (ix2 k (i 1))) :
    ∑ k : Fin K, xb (ix2 p k) * wb (ix2 k q) = lin X W i :=
  Finset.sum_congr rfl fun k _ => by rw [hx k, hw k]

/-- An entry `a` that is entry `i` of `A`, plus a bias entry `r` that is `b` at `i`'s column, floored at zero, is entry `i` of
    `biasRelu A b`. -/
theorem biasRelu_of_entries {R C : ℕ} (A : (⟨2, ![R, C]⟩ : Shape).Idx → EReal) (b : (⟨1, ![C]⟩ : Shape).Idx → EReal)
    (i : (⟨2, ![R, C]⟩ : Shape).Idx) (a r : EReal) (ha : a = A i) (hr : r = b (ix1 (i 1))) :
    max (a + r) (Ideal.ofBits .f32 0x00000000#32) = biasRelu A b i := by
  rw [ha, hr]; rfl

/-! ## The matrix product in the two spellings -/

/-- A vector unit's product of a block `x` of `B` rows with `w`, both rounded to bfloat16, into the zero accumulator: entry
    `(p, c)` is the product of row `p` of the block with column `c` of `w`. -/
theorem kernel_lin_apply {B K C : ℕ} (d : DotDims ⟨2, ![B, K]⟩ ⟨2, ![K, C]⟩ ⟨2, ![B, C]⟩) (hd : d = DotDims.plain B K C)
    (x : FVec Ideal ⟨2, ![B, K]⟩ .f32) (w : FVec Ideal ⟨2, ![K, C]⟩ .f32) (ht : FTy.bf16.bits < FTy.f32.bits)
    (p : Fin B) (c : Fin C) :
    matmul d none (truncf .bf16 x ht) (truncf .bf16 w ht) (constant ⟨2, ![B, C]⟩ .f32 0x00000000#32) (ix2 p c)
      = ∑ k : Fin K, x (ix2 p k) * w (ix2 k c) := by
  subst hd
  simp only [matmul, Cert.LibMlp.matmul_zero_plain, truncf_apply]

/-- The host's `dot_general` of all rows is `lin`. -/
theorem host_lin {R K C : ℕ} (d : DotDims ⟨2, ![R, K]⟩ ⟨2, ![K, C]⟩ ⟨2, ![R, C]⟩) (hd : d = DotDims.plain R K C)
    (X : FVec Ideal ⟨2, ![R, K]⟩ .f32) (W : FVec Ideal ⟨2, ![K, C]⟩ .f32) :
    Host.dotGeneral d none X W = lin X W := by
  subst hd
  funext i
  obtain ⟨r, c, rfl⟩ : ∃ (r : Fin R) (c : Fin C), i = ix2 r c := ⟨i 0, i 1, eq_ix2 i⟩
  simp only [Host.dotGeneral, Cert.LibMlp.dotGeneral_plain, lin_ix2]

/-! ## The bias and the floor in the two spellings -/

/-- A vector unit's `max (a + row, 0)` on a block `a` of `B` rows, the `[1, C]` row repeated down the rows, the floor a zero
    splat: entry `(p, q)` adds the row's entry of column `q`. -/
theorem kernel_biasRelu_apply {B C : ℕ} (a : FVec Ideal ⟨2, ![B, C]⟩ .f32) (row : FVec Ideal ⟨2, ![1, C]⟩ .f32)
    (ha : (⟨2, ![B, C]⟩ : Shape).ShapeCasts ⟨2, ![B, C]⟩) (hr : (⟨2, ![1, C]⟩ : Shape).ShapeCasts ⟨2, ![1, C]⟩)
    (hB : (⟨2, ![1, C]⟩ : Shape).Broadcasts ⟨2, ![B, C]⟩) (p : Fin B) (q : Fin C) :
    maximumf (addf (shapeCast ⟨2, ![B, C]⟩ a ha) (broadcastTo ⟨2, ![B, C]⟩ (shapeCast ⟨2, ![1, C]⟩ row hr) hB))
        (broadcast ⟨2, ![B, C]⟩ (Scalar.ofBits .f32 0x00000000#32)) (ix2 p q)
      = max (a (ix2 p q) + row (ix2 (0 : Fin 1) q)) (Ideal.ofBits .f32 0x00000000#32) := by
  simp only [maximumf_apply, addf_apply, shapeCast_self, broadcastTo_1b_ab_apply, broadcast_apply]
  rfl

/-- The host's `max (A + b, 0)`, the vector `b` broadcast to one row and then down all rows, the floor a broadcast zero,
    is `biasRelu`. -/
theorem host_biasRelu {R C : ℕ} (A : FVec Ideal ⟨2, ![R, C]⟩ .f32) (b : FVec Ideal ⟨1, ![C]⟩ .f32)
    (hb : (⟨1, ![C]⟩ : Shape).BroadcastsInDim ⟨2, ![1, C]⟩ ![1]) (hB : (⟨2, ![1, C]⟩ : Shape).BroadcastsInDim ⟨2, ![R, C]⟩ ![0, 1])
    (hz : (⟨0, ![]⟩ : Shape).BroadcastsInDim ⟨2, ![R, C]⟩ ![]) :
    maximumf (addf A (broadcastInDim ⟨2, ![R, C]⟩ ![0, 1] hB (broadcastInDim ⟨2, ![1, C]⟩ ![1] hb b)))
        (broadcastInDim ⟨2, ![R, C]⟩ ![] hz (constant (F := Ideal) ⟨0, ![]⟩ .f32 0x00000000#32))
      = biasRelu A b := by
  funext i
  obtain ⟨r, c, rfl⟩ : ∃ (r : Fin R) (c : Fin C), i = ix2 r c := ⟨i 0, i 1, eq_ix2 i⟩
  have bias : broadcastInDim ⟨2, ![R, C]⟩ ![0, 1] hB (broadcastInDim ⟨2, ![1, C]⟩ ![1] hb b) (ix2 r c) = b (ix1 c) := by
    rw [broadcastInDim_apply ![0, 1] hB _ (ix2 r c) (ix2 (0 : Fin 1) c) (fun a => by
      match a with
      | ⟨0, _⟩ => rfl
      | ⟨1, _⟩ => show c.val = if C = 1 then 0 else c.val; split <;> [(have := c.isLt; omega); rfl])]
    exact broadcastInDim_apply ![1] hb _ (ix2 (0 : Fin 1) c) (ix1 c) (fun a => by
      match a with
      | ⟨0, _⟩ => show c.val = if C = 1 then 0 else c.val; split <;> [(have := c.isLt; omega); rfl])
  have zero : broadcastInDim ⟨2, ![R, C]⟩ ![] hz (constant (F := Ideal) ⟨0, ![]⟩ .f32 0x00000000#32) (ix2 r c)
      = Ideal.ofBits .f32 0x00000000#32 :=
    broadcastInDim_apply ![] hz _ (ix2 r c) ix0 (fun a => a.elim0)
  rw [maximumf_apply, addf_apply, bias, zero, biasRelu_ix2]

/-- A `[1, C]` array read along its one row, as a vector of `C` entries. -/
def rowAsVector {C : ℕ} (row : (⟨2, ![1, C]⟩ : Shape).Idx → EReal) : (⟨1, ![C]⟩ : Shape).Idx → EReal :=
  fun j => row (ix2 (0 : Fin 1) (j 0))

theorem rowAsVector_ix1 {C : ℕ} (row : (⟨2, ![1, C]⟩ : Shape).Idx → EReal) (q : Fin C) :
    rowAsVector row (ix1 q) = row (ix2 (0 : Fin 1) q) := rfl

/-- A bias vector laid out as a `[1, C]` row, read back along the row, is the vector. -/
theorem rowAsVector_shapeCast {C : ℕ} (b : (⟨1, ![C]⟩ : Shape).Idx → EReal) (h : (⟨1, ![C]⟩ : Shape).ShapeCasts ⟨2, ![1, C]⟩) :
    rowAsVector (shapeCast ⟨2, ![1, C]⟩ b h) = b := by
  funext j
  exact (shapeCast_a_1a_apply b h (0 : Fin 1) (j 0)).trans (congrArg b (eq_ix1 j).symm)

end Cert.Gcn

end
-- ==== Proof.FirstProduct.lean ====
/-
  The first matrix product, block by block. The pallas_call tiles the node features into 50 blocks of 2000 rows; at grid
  point `t` the body multiplies block `t` (rounded to bfloat16, which changes nothing on the extended reals) by the whole
  128 × 128 weight matrix into a zero accumulator and stores the 2000 × 128 result, which is written back as block `t` of the
  output array. Entry `(r, c)` of a matrix product depends on row `r` of the left operand only, so that block IS block `t` of
  the product of the whole arrays; the 50 blocks tile the 100000 rows, so the output array ends holding the whole product.
  Stated for any contents `V` of the buffers when the region is entered.
-/
import proofs.«149474_j60567628808242_1_alg».proof.Proof.Gen.KernelIdeal.Frame
import proofs.«149474_j60567628808242_1_alg».proof.Proof.GcnLayers
import Idealize.ShloMosaic.Lib.Pipeline.Value

set_option maxRecDepth 16384

noncomputable section

namespace Cert.KernelIdeal.FirstProduct

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(p, q)` of the block: row `p` of the loaded block times column `q` of the weights. -/
theorem stored_entry (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.Gcn.kernel_lin_apply dot_S2000x128_S128x128_S2000x128_1_0_0_1_n_n rfl x0 x1 bitsLt_bf16_f32 p q

/-- The printed index maps over the grid: the left operand's block moves down the rows with the output's, the weight
    matrix is one block, and every block starts at column 0. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the 50 row blocks is some grid point's output block. -/
theorem row_block_reached : ∀ q0 : Fin 50, ∃ t : Fin cfg0.N, win0_2.index t = ![q0.val, 0] :=
  (by decide +kernel : ∀ q0 : Fin 50, ∃ t : Fin grid0.N, win0_2.index t = ![q0.val, 0])

/-- What point `t` writes back is block `t` of the product of the whole arrays. -/
theorem written_back (c : Dev nD) (t : Fin cfg0.N) :
    (dat0 V c).flushed 2 t
      = ((cfg0.win 2).blk t).view.read (Elt Ideal) (Cert.Gcn.lin (R := 100000) (K := 128) (C := 128) (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4⟩ := index_maps t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = Cert.Gcn.lin (R := 100000) (K := 128) (C := 128) (V c main_arg0) (V c main_arg1) (((cfg0.win 2).blk t).view.emb (ix2 p q))
  refine (stored_entry (iblk0 V c 0 t) (iblk0 V c 1 t) p q).trans
    (Cert.Gcn.lin_of_rows (R := 100000) (K := 128) (C := 128) (B := 2000) (V c main_arg0) (V c main_arg1) (iblk0 V c 0 t) (iblk0 V c 1 t)
      (((cfg0.win 2).blk t).view.emb (ix2 p q)) p q (fun k => ?_) (fun k => ?_))
  · show V c main_arg0 (((cfg0.win 0).blk t).view.emb (ix2 p k)) = V c main_arg0 (ix2 ((((cfg0.win 2).blk t).view.emb (ix2 p q)) 0) k)
    refine congrArg (V c main_arg0) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_arg1 (((cfg0.win 1).blk t).view.emb (ix2 k q)) = V c main_arg1 (ix2 k ((((cfg0.win 2).blk t).view.emb (ix2 p q)) 1))
    refine congrArg (V c main_arg1) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The blocks tile the array: row `r` is in the block of the point whose block index is `r / 2000`. -/
theorem tiled (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := row_block_reached ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the product of the two input arrays as the region found them. -/
theorem product (c : Dev nD) :
    (dat0 V c).arrAt 2 cfg0.N = Cert.Gcn.lin (R := 100000) (K := 128) (C := 128) (V c main_arg0) (V c main_arg1) :=
  (dat0 V c).arrAt_eq_of_cover 2 _ (fun t _ => written_back V c t) tiled

end Cert.KernelIdeal.FirstProduct

end
-- ==== Proof.FirstActivation.lean ====
/-
  The first bias and ReLU, block by block. The pallas_call tiles the aggregated features into 50 blocks of 2000 rows and hands
  the body the bias as one `[1, 128]` block; at grid point `t` the body adds the row to every row of block `t`, floors the sum at
  zero and stores the 2000 × 128 result, which is written back as block `t` of the output array. The operation is entrywise
  in the aggregate and reads the bias at the entry's column only, so that block IS block `t` of `max (A + b, 0)` on the whole
  arrays; the 50 blocks tile the 100000 rows, so the output array ends holding the whole of it.
  Stated for any contents `V` of the buffers when the region is entered.
-/
import proofs.«149474_j60567628808242_1_alg».proof.Proof.Gen.KernelIdeal.Frame
import proofs.«149474_j60567628808242_1_alg».proof.Proof.GcnLayers
import Idealize.ShloMosaic.Lib.Pipeline.Value

set_option maxRecDepth 16384

noncomputable section

namespace Cert.KernelIdeal.FirstActivation

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(p, q)` of the block: the block's entry plus the row's entry of column `q`, floored at zero. -/
theorem stored_entry (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  exact Cert.Gcn.kernel_biasRelu_apply x0 x1 shapeCasts_S2000x128_S2000x128 shapeCasts_S1x128_S1x128 broadcasts_S1x128_S2000x128 p q

/-- The printed index maps over the grid: the aggregate's block moves down the rows with the output's, the bias row is
    one block, and every block starts at column 0. -/
theorem index_maps : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every one of the 50 row blocks is some grid point's output block. -/
theorem row_block_reached : ∀ q0 : Fin 50, ∃ t : Fin cfg1.N, win1_2.index t = ![q0.val, 0] :=
  (by decide +kernel : ∀ q0 : Fin 50, ∃ t : Fin grid1.N, win1_2.index t = ![q0.val, 0])

/-- What point `t` writes back is block `t` of `max (A + b, 0)` on the whole arrays. -/
theorem written_back (c : Dev nD) (t : Fin cfg1.N) :
    (dat1 V c).flushed 2 t
      = ((cfg1.win 2).blk t).view.read (Elt Ideal)
          (Cert.Gcn.biasRelu (R := 100000) (C := 128) (V c main_v43) (Cert.Gcn.rowAsVector (C := 128) (V c main_v44))) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4⟩ := index_maps t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q)
    = Cert.Gcn.biasRelu (R := 100000) (C := 128) (V c main_v43) (Cert.Gcn.rowAsVector (C := 128) (V c main_v44)) (((cfg1.win 2).blk t).view.emb (ix2 p q))
  refine (stored_entry (iblk1 V c 0 t) (iblk1 V c 1 t) p q).trans
    (Cert.Gcn.biasRelu_of_entries (R := 100000) (C := 128) (V c main_v43) (Cert.Gcn.rowAsVector (C := 128) (V c main_v44))
      (((cfg1.win 2).blk t).view.emb (ix2 p q)) _ _ ?_ ?_)
  · show V c main_v43 (((cfg1.win 0).blk t).view.emb (ix2 p q)) = V c main_v43 (((cfg1.win 2).blk t).view.emb (ix2 p q))
    refine congrArg (V c main_v43) ?_
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  · show V c main_v44 (((cfg1.win 1).blk t).view.emb (ix2 (0 : Fin 1) q)) = V c main_v44 (ix2 (0 : Fin 1) ((((cfg1.win 2).blk t).view.emb (ix2 p q)) 1))
    refine congrArg (V c main_v44) ?_
    funext a; apply Fin.ext
    match a with
    | ⟨0, _⟩ => show win1_1.index t (0 : Fin 2) * 1 + 1 * (0 : Fin 1).val = (0 : Fin 1).val; omega
    | ⟨1, _⟩ => show win1_1.index t (1 : Fin 2) * 128 + 1 * q.val = win1_2.index t (1 : Fin 2) * 128 + 1 * q.val; omega

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The blocks tile the array: row `r` is in the block of the point whose block index is `r / 2000`. -/
theorem tiled (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := row_block_reached ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region is `max (A + b, 0)` of the aggregate and the bias row as the region found them. -/
theorem activation (c : Dev nD) :
    (dat1 V c).arrAt 2 cfg1.N
      = Cert.Gcn.biasRelu (R := 100000) (C := 128) (V c main_v43) (Cert.Gcn.rowAsVector (C := 128) (V c main_v44)) :=
  (dat1 V c).arrAt_eq_of_cover 2 _ (fun t _ => written_back V c t) tiled

end Cert.KernelIdeal.FirstActivation

end
-- ==== Proof.LayerOne.lean ====
/-
  The first layer, buffer by buffer. With `src`, `dst`, `wgt` the edge lists and weights of the edge array:
    product₁ = x · W₁   (the first pallas_call),   aggregate₁ = propagate src dst wgt product₁   (host operations),
    hidden   = max (aggregate₁ + b₁, 0)            (the second pallas_call; the bias reaches it reshaped to a [1, 128] row).
  Each fact says what one buffer holds at a boundary between segments of @main: at a region's exit its output array is what
  the region's value theorem says of the entry contents, every buffer the segment does not write keeps what it held, and a
  stretch of host operations is evaluated operation by operation.
-/
import proofs.«149474_j60567628808242_1_alg».proof.Proof.Edges
import proofs.«149474_j60567628808242_1_alg».proof.Proof.FirstProduct
import proofs.«149474_j60567628808242_1_alg».proof.Proof.FirstActivation
import Idealize.ShloMosaic.Lib.StableHlo.Run

set_option maxRecDepth 16384

noncomputable section

namespace Cert.KernelIdeal.LayerOne

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edges' sources with the self-loops. -/
abbrev src := Glue.srcs (F := Ideal) (m ((c.tc : Thread nD τ).loc main_arg5))
/-- The edges' targets with the self-loops. -/
abbrev dst := Glue.dsts (F := Ideal) (m ((c.tc : Thread nD τ).loc main_arg5))
/-- The edge weights. -/
abbrev wgt := Glue.edgeWeight (F := Ideal) (src m c) (dst m c)

/-- `x · W₁`. -/
def product : S100000x128.Idx → EReal := Cert.Gcn.lin (R := 100000) (K := 128) (C := 128) (m ((c.tc : Thread nD τ).loc main_arg0)) (m ((c.tc : Thread nD τ).loc main_arg1))
/-- The first layer's messages summed at their targets. -/
def aggregate : S100000x128.Idx → EReal := Glue.propagate (F := Ideal) (src m c) (dst m c) (wgt m c) (product m c)
/-- The hidden features `max (aggregate + b₁, 0)`. -/
def hidden : S100000x128.Idx → EReal := Cert.Gcn.biasRelu (R := 100000) (C := 128) (aggregate m c) (m ((c.tc : Thread nD τ).loc main_arg2))

/-- A bias laid out as a row and read back along the row is the bias. -/
theorem row_back (b : (⟨S128, .f32⟩ : BufTy).Contents (Elt Ideal)) :
    Cert.Gcn.rowAsVector (C := 128) (Glue.biasRow (F := Ideal) b) = b :=
  Cert.Gcn.rowAsVector_shapeCast b _

/-! ## At the first region's exit -/

theorem at4_product : W4 m ρ c (Proc.devRef .tc main_v30) = product m c :=
  (W4_arr m ρ c 2).trans ((FirstProduct.product (V3 m ρ) c).trans (by
    show Cert.Gcn.lin (R := 100000) (K := 128) (C := 128) (W3 m ρ c (Proc.devRef .tc main_arg0)) (W3 m ρ c (Proc.devRef .tc main_arg1)) = _
    rw [Edges.arg0 m ρ c, Edges.arg1 m ρ c]; rfl))
theorem at4_sources : W4 m ρ c (Proc.devRef .tc main_v3) = src m c :=
  (W4_of_ne m ρ c main_v3 (by decide)).trans (Edges.sources m ρ c)
theorem at4_targets : W4 m ρ c (Proc.devRef .tc main_v6) = dst m c :=
  (W4_of_ne m ρ c main_v6 (by decide)).trans (Edges.targets m ρ c)
theorem at4_weights : W4 m ρ c (Proc.devRef .tc main_v29) = wgt m c :=
  (W4_of_ne m ρ c main_v29 (by decide)).trans (Edges.weights m ρ c)
theorem at4_arg2 : W4 m ρ c (Proc.devRef .tc main_arg2) = (m ((c.tc : Thread nD τ).loc main_arg2)) :=
  (W4_of_ne m ρ c main_arg2 (by decide)).trans (Edges.arg2 m ρ c)
theorem at4_arg3 : W4 m ρ c (Proc.devRef .tc main_arg3) = (m ((c.tc : Thread nD τ).loc main_arg3)) :=
  (W4_of_ne m ρ c main_arg3 (by decide)).trans (Edges.arg3 m ρ c)
theorem at4_arg4 : W4 m ρ c (Proc.devRef .tc main_arg4) = (m ((c.tc : Thread nD τ).loc main_arg4)) :=
  (W4_of_ne m ρ c main_arg4 (by decide)).trans (Edges.arg4 m ρ c)

/-! ## After the host operations between the first two regions -/

theorem at5_aggregate : W5 m ρ c (Proc.devRef .tc main_v43) = aggregate m c := by
  show StableHlo.after hostOps1 (W4 m ρ c) (Proc.devRef .tc main_v43) = _
  after_results_simp
  rw [at4_sources m ρ c, at4_targets m ρ c, at4_weights m ρ c, at4_product m ρ c]
  rfl
theorem at5_biasRow : W5 m ρ c (Proc.devRef .tc main_v44) = Glue.biasRow (F := Ideal) (m ((c.tc : Thread nD τ).loc main_arg2)) := by
  show StableHlo.after hostOps1 (W4 m ρ c) (Proc.devRef .tc main_v44) = _
  after_results
  rw [at4_arg2 m ρ c]
  rfl
theorem at5_sources : W5 m ρ c (Proc.devRef .tc main_v3) = src m c := by
  show StableHlo.after hostOps1 (W4 m ρ c) (Proc.devRef .tc main_v3) = _
  after_results <;> exact at4_sources m ρ c
theorem at5_targets : W5 m ρ c (Proc.devRef .tc main_v6) = dst m c := by
  show StableHlo.after hostOps1 (W4 m ρ c) (Proc.devRef .tc main_v6) = _
  after_results <;> exact at4_targets m ρ c
theorem at5_weights : W5 m ρ c (Proc.devRef .tc main_v29) = wgt m c := by
  show StableHlo.after hostOps1 (W4 m ρ c) (Proc.devRef .tc main_v29) = _
  after_results <;> exact at4_weights m ρ c
theorem at5_arg3 : W5 m ρ c (Proc.devRef .tc main_arg3) = (m ((c.tc : Thread nD τ).loc main_arg3)) := by
  show StableHlo.after hostOps1 (W4 m ρ c) (Proc.devRef .tc main_arg3) = _
  after_results <;> exact at4_arg3 m ρ c
theorem at5_arg4 : W5 m ρ c (Proc.devRef .tc main_arg4) = (m ((c.tc : Thread nD τ).loc main_arg4)) := by
  show StableHlo.after hostOps1 (W4 m ρ c) (Proc.devRef .tc main_arg4) = _
  after_results <;> exact at4_arg4 m ρ c

/-! ## At the second region's exit -/

theorem at6_hidden : W6 m ρ c (Proc.devRef .tc main_v45) = hidden m c :=
  (W6_arr m ρ c 2).trans ((FirstActivation.activation (V5 m ρ) c).trans (by
    show Cert.Gcn.biasRelu (R := 100000) (C := 128) (W5 m ρ c (Proc.devRef .tc main_v43)) (Cert.Gcn.rowAsVector (C := 128) (W5 m ρ c (Proc.devRef .tc main_v44))) = _
    rw [at5_aggregate m ρ c, at5_biasRow m ρ c, row_back]; rfl))
theorem at6_sources : W6 m ρ c (Proc.devRef .tc main_v3) = src m c :=
  (W6_of_ne m ρ c main_v3 (by decide)).trans (at5_sources m ρ c)
theorem at6_targets : W6 m ρ c (Proc.devRef .tc main_v6) = dst m c :=
  (W6_of_ne m ρ c main_v6 (by decide)).trans (at5_targets m ρ c)
theorem at6_weights : W6 m ρ c (Proc.devRef .tc main_v29) = wgt m c :=
  (W6_of_ne m ρ c main_v29 (by decide)).trans (at5_weights m ρ c)
theorem at6_arg3 : W6 m ρ c (Proc.devRef .tc main_arg3) = (m ((c.tc : Thread nD τ).loc main_arg3)) :=
  (W6_of_ne m ρ c main_arg3 (by decide)).trans (at5_arg3 m ρ c)
theorem at6_arg4 : W6 m ρ c (Proc.devRef .tc main_arg4) = (m ((c.tc : Thread nD τ).loc main_arg4)) :=
  (W6_of_ne m ρ c main_arg4 (by decide)).trans (at5_arg4 m ρ c)

end Cert.KernelIdeal.LayerOne

end
-- ==== Proof.SecondProduct.lean ====
/-
  The second matrix product, block by block. The pallas_call tiles the hidden features into 50 blocks of 2000 rows; at grid
  point `t` the body multiplies block `t` (rounded to bfloat16, which changes nothing on the extended reals; the body first casts the block to its own shape, which changes nothing either) by the whole
  128 × 128 weight matrix into a zero accumulator and stores the 2000 × 128 result, which is written back as block `t` of the
  output array. Entry `(r, c)` of a matrix product depends on row `r` of the left operand only, so that block IS block `t` of
  the product of the whole arrays; the 50 blocks tile the 100000 rows, so the output array ends holding the whole product.
  Stated for any contents `V` of the buffers when the region is entered.
-/
import proofs.«149474_j60567628808242_1_alg».proof.Proof.Gen.KernelIdeal.Frame
import proofs.«149474_j60567628808242_1_alg».proof.Proof.GcnLayers
import Idealize.ShloMosaic.Lib.Pipeline.Value

set_option maxRecDepth 16384

noncomputable section

namespace Cert.KernelIdeal.SecondProduct

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(p, q)` of the block: row `p` of the loaded block times column `q` of the weights. -/
theorem stored_entry (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  rw [shapeCast_self]
  exact Cert.Gcn.kernel_lin_apply dot_S2000x128_S128x128_S2000x128_1_0_0_1_n_n rfl x0 x1 bitsLt_bf16_f32 p q

/-- The printed index maps over the grid: the left operand's block moves down the rows with the output's, the weight
    matrix is one block, and every block starts at column 0. -/
theorem index_maps : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the 50 row blocks is some grid point's output block. -/
theorem row_block_reached : ∀ q0 : Fin 50, ∃ t : Fin cfg2.N, win2_2.index t = ![q0.val, 0] :=
  (by decide +kernel : ∀ q0 : Fin 50, ∃ t : Fin grid2.N, win2_2.index t = ![q0.val, 0])

/-- What point `t` writes back is block `t` of the product of the whole arrays. -/
theorem written_back (c : Dev nD) (t : Fin cfg2.N) :
    (dat2 V c).flushed 2 t
      = ((cfg2.win 2).blk t).view.read (Elt Ideal) (Cert.Gcn.lin (R := 100000) (K := 128) (C := 128) (V c main_v45) (V c main_arg3)) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x128) zero_offsets]
  obtain ⟨e0, e1, e2, e3, e4⟩ := index_maps t
  funext j
  obtain ⟨p, q, rfl⟩ : ∃ (p : Fin 2000) (q : Fin 128), j = ix2 p q := ⟨j 0, j 1, eq_ix2 j⟩
  show k2_pay1 (iblk2 V c 0 t) (iblk2 V c 1 t) (ix2 p q)
    = Cert.Gcn.lin (R := 100000) (K := 128) (C := 128) (V c main_v45) (V c main_arg3) (((cfg2.win 2).blk t).view.emb (ix2 p q))
  refine (stored_entry (iblk2 V c 0 t) (iblk2 V c 1 t) p q).trans
    (Cert.Gcn.lin_of_rows (R := 100000) (K := 128) (C := 128) (B := 2000) (V c main_v45) (V c main_arg3) (iblk2 V c 0 t) (iblk2 V c 1 t)
      (((cfg2.win 2).blk t).view.emb (ix2 p q)) p q (fun k => ?_) (fun k => ?_))
  · show V c main_v45 (((cfg2.win 0).blk t).view.emb (ix2 p k)) = V c main_v45 (ix2 ((((cfg2.win 2).blk t).view.emb (ix2 p q)) 0) k)
    refine congrArg (V c main_v45) ?_
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · show V c main_arg3 (((cfg2.win 1).blk t).view.emb (ix2 k q)) = V c main_arg3 (ix2 k ((((cfg2.win 2).blk t).view.emb (ix2 p q)) 1))
    refine congrArg (V c main_arg3) ?_
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the output array is in point `t`'s block iff each coordinate is in the block's range on its axis. -/
theorem mem_block (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- The blocks tile the array: row `r` is in the block of the point whose block index is `r / 2000`. -/
theorem tiled (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := row_block_reached ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region is the product of the two input arrays as the region found them. -/
theorem product (c : Dev nD) :
    (dat2 V c).arrAt 2 cfg2.N = Cert.Gcn.lin (R := 100000) (K := 128) (C := 128) (V c main_v45) (V c main_arg3) :=
  (dat2 V c).arrAt_eq_of_cover 2 _ (fun t _ => written_back V c t) tiled

end Cert.KernelIdeal.SecondProduct

end
-- ==== Proof.SecondActivation.lean ====
/-
  The second bias and ReLU, block by block. The pallas_call tiles the aggregated features into 50 blocks of 2000 rows and hands
  the body the bias as one `[1, 128]` block; at grid point `t` the body adds the row to every row of block `t`, floors the sum at
  zero and stores the 2000 × 128 result, which is written back as block `t` of the output array. The operation is entrywise
  in the aggregate and reads the bias at the entry's column only, so that block IS block `t` of `max (A + b, 0)` on the whole
  arrays; the 50 blocks tile the 100000 rows, so the output array ends holding the whole of it.
  Stated for any contents `V` of the buffers when the region is entered.
-/
import proofs.«149474_j60567628808242_1_alg».proof.Proof.Gen.KernelIdeal.Frame
import proofs.«149474_j60567628808242_1_alg».proof.Proof.GcnLayers
import Idealize.ShloMosaic.Lib.Pipeline.Value

set_option maxRecDepth 16384

noncomputable section

namespace Cert.KernelIdeal.SecondActivation

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(p, q)` of the block: the block's entry plus the row's entry of column `q`, floored at zero. -/
theorem stored_entry (x0 : Vec Ideal S2000x128 .f32) (x1 : Vec Ideal S1x128 .f32) (p : Fin 2000) (q : Fin 128) :
    k3_pay1 x0 x1 (ix2 p q) = max (x0 (ix2 p q) + x1 (ix2 (0 : Fin 1) q)) (Ideal.ofBits .f32 0x00000000#32) := by
  unfold k3_pay1
  exact Cert.Gcn.kernel_biasRelu_apply x0 x1 shapeCasts_S2000x128_S2000x128 shapeCasts_S1x128_S1x128 broadcasts_S1x128_S2000x128 p q

/-- The printed index maps over the grid: the aggregate's block moves down the rows with the output's, the bias row is
    one block, and every block starts at column 0. -/
theorem index_maps : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 :=
  (by decide +kernel : ∀ t : Fin grid3.N, _)

/-- Every one of the 50 row blocks is some grid point's output block. -/
theorem row_block_reached : ∀ q0 : Fin 50, ∃ t : Fin cfg3.N, win3_2.index t = ![q0.val, 0] :=
  (by decide +kernel : ∀ q0 : Fin 50, ∃ t : Fin grid3.N, win3_2.index t = ![q0.val, 0])

/-- What point `t` writes back is block `t` of `max (A + b, 0)` on the whole arrays. -/
theorem written_back (c : Dev nD) (t : Fin cfg3.N) :
    (dat3 V c).flushed 2 t
      = ((cfg3.win 2).blk t).view.read (Elt Ideal)
          (Cert.Gcn.biasRelu (R := 100000) (C := 128) (V c main_v59) (Cert.Gcn.rowAsVector (C := 128) (V c main_v60))) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S1x128) zero_offsets]
  obtain ⟨e0, e1, e2, e3, e4⟩ := index_maps t
  funext j
  obtain ⟨p, q, rfl⟩ : ∃ (p : Fin 2000) (q : Fin 128), j = ix2 p q := ⟨j 0, j 1, eq_ix2 j⟩
  show k3_pay1 (iblk3 V c 0 t) (iblk3 V c 1 t) (ix2 p q)
    = Cert.Gcn.biasRelu (R := 100000) (C := 128) (V c main_v59) (Cert.Gcn.rowAsVector (C := 128) (V c main_v60)) (((cfg3.win 2).blk t).view.emb (ix2 p q))
  refine (stored_entry (iblk3 V c 0 t) (iblk3 V c 1 t) p q).trans
    (Cert.Gcn.biasRelu_of_entries (R := 100000) (C := 128) (V c main_v59) (Cert.Gcn.rowAsVector (C := 128) (V c main_v60))
      (((cfg3.win 2).blk t).view.emb (ix2 p q)) _ _ ?_ ?_)
  · show V c main_v59 (((cfg3.win 0).blk t).view.emb (ix2 p q)) = V c main_v59 (((cfg3.win 2).blk t).view.emb (ix2 p q))
    refine congrArg (V c main_v59) ?_
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  · show V c main_v60 (((cfg3.win 1).blk t).view.emb (ix2 (0 : Fin 1) q)) = V c main_v60 (ix2 (0 : Fin 1) ((((cfg3.win 2).blk t).view.emb (ix2 p q)) 1))
    refine congrArg (V c main_v60) ?_
    funext a; apply Fin.ext
    match a with
    | ⟨0, _⟩ => show win3_1.index t (0 : Fin 2) * 1 + 1 * (0 : Fin 1).val = (0 : Fin 1).val; omega
    | ⟨1, _⟩ => show win3_1.index t (1 : Fin 2) * 128 + 1 * q.val = win3_2.index t (1 : Fin 2) * 128 + 1 * q.val; omega

/-- An index of the output array is in point `t`'s block iff each coordinate is in the block's range on its axis. -/
theorem mem_block (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- The blocks tile the array: row `r` is in the block of the point whose block index is `r / 2000`. -/
theorem tiled (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := row_block_reached ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The output array after the region is `max (A + b, 0)` of the aggregate and the bias row as the region found them. -/
theorem activation (c : Dev nD) :
    (dat3 V c).arrAt 2 cfg3.N
      = Cert.Gcn.biasRelu (R := 100000) (C := 128) (V c main_v59) (Cert.Gcn.rowAsVector (C := 128) (V c main_v60)) :=
  (dat3 V c).arrAt_eq_of_cover 2 _ (fun t _ => written_back V c t) tiled

end Cert.KernelIdeal.SecondActivation

end
-- ==== Proof.LayerTwo.lean ====
/-
  The second layer, buffer by buffer, and the result. With `src`, `dst`, `wgt` and `hidden` as in the first layer:
    product₂ = hidden · W₂   (the third pallas_call, entered straight after the second),
    aggregate₂ = propagate src dst wgt product₂   (host operations),
    output = max (aggregate₂ + b₂, 0)             (the fourth pallas_call): what @main returns.
-/
import proofs.«149474_j60567628808242_1_alg».proof.Proof.LayerOne
import proofs.«149474_j60567628808242_1_alg».proof.Proof.SecondProduct
import proofs.«149474_j60567628808242_1_alg».proof.Proof.SecondActivation
import Idealize.ShloMosaic.Lib.StableHlo.Run

set_option maxRecDepth 16384

noncomputable section

namespace Cert.KernelIdeal.LayerTwo

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- `hidden · W₂`. -/
def product : S100000x128.Idx → EReal := Cert.Gcn.lin (R := 100000) (K := 128) (C := 128) (LayerOne.hidden m c) (m ((c.tc : Thread nD τ).loc main_arg3))
/-- The second layer's messages summed at their targets. -/
def aggregate : S100000x128.Idx → EReal := Glue.propagate (F := Ideal) (LayerOne.src m c) (LayerOne.dst m c) (LayerOne.wgt m c) (product m c)
/-- The network's output `max (aggregate + b₂, 0)`. -/
def output : S100000x128.Idx → EReal := Cert.Gcn.biasRelu (R := 100000) (C := 128) (aggregate m c) (m ((c.tc : Thread nD τ).loc main_arg4))

/-! ## At the third region's exit -/

theorem at7_product : W7 m ρ c (Proc.devRef .tc main_v46) = product m c :=
  (W7_arr m ρ c 2).trans ((SecondProduct.product (V6 m ρ) c).trans (by
    show Cert.Gcn.lin (R := 100000) (K := 128) (C := 128) (W6 m ρ c (Proc.devRef .tc main_v45)) (W6 m ρ c (Proc.devRef .tc main_arg3)) = _
    rw [LayerOne.at6_hidden m ρ c, LayerOne.at6_arg3 m ρ c]; rfl))
theorem at7_sources : W7 m ρ c (Proc.devRef .tc main_v3) = LayerOne.src m c :=
  (W7_of_ne m ρ c main_v3 (by decide)).trans (LayerOne.at6_sources m ρ c)
theorem at7_targets : W7 m ρ c (Proc.devRef .tc main_v6) = LayerOne.dst m c :=
  (W7_of_ne m ρ c main_v6 (by decide)).trans (LayerOne.at6_targets m ρ c)
theorem at7_weights : W7 m ρ c (Proc.devRef .tc main_v29) = LayerOne.wgt m c :=
  (W7_of_ne m ρ c main_v29 (by decide)).trans (LayerOne.at6_weights m ρ c)
theorem at7_arg4 : W7 m ρ c (Proc.devRef .tc main_arg4) = (m ((c.tc : Thread nD τ).loc main_arg4)) :=
  (W7_of_ne m ρ c main_arg4 (by decide)).trans (LayerOne.at6_arg4 m ρ c)

/-! ## After the host operations before the last region -/

theorem at8_aggregate : W8 m ρ c (Proc.devRef .tc main_v59) = aggregate m c := by
  show StableHlo.after hostOps3 (W7 m ρ c) (Proc.devRef .tc main_v59) = _
  after_results_simp
  rw [at7_sources m ρ c, at7_targets m ρ c, at7_weights m ρ c, at7_product m ρ c]
  rfl
theorem at8_biasRow : W8 m ρ c (Proc.devRef .tc main_v60) = Glue.biasRow (F := Ideal) (m ((c.tc : Thread nD τ).loc main_arg4)) := by
  show StableHlo.after hostOps3 (W7 m ρ c) (Proc.devRef .tc main_v60) = _
  after_results
  rw [at7_arg4 m ρ c]
  rfl

/-! ## At the last region's exit: the result -/

theorem result : W9 m ρ c (Proc.devRef .tc main_v61) = output m c :=
  (W9_arr m ρ c 2).trans ((SecondActivation.activation (V8 m ρ) c).trans (by
    show Cert.Gcn.biasRelu (R := 100000) (C := 128) (W8 m ρ c (Proc.devRef .tc main_v59)) (Cert.Gcn.rowAsVector (C := 128) (W8 m ρ c (Proc.devRef .tc main_v60))) = _
    rw [at8_aggregate m ρ c, at8_biasRow m ρ c, LayerOne.row_back]; rfl))

end Cert.KernelIdeal.LayerTwo

end
-- ==== Proof.Bridge.lean ====
/-
  The reference computes the same function. Its run ends with the result at the composition of its 86 host operations of
  the arguments; in that composition the edge lists, the degrees, the weights, the gathers and the scatter-adds are, operation
  for operation and literal for literal, the ones the kernel's @main performs between its pallas_calls. The two places where
  the programs differ are the dense stages: the reference takes each matrix product with one `dot_general` over all 100000
  rows, and adds each bias by broadcasting the vector to one row and then down all rows before the maximum with a broadcast
  zero. On the extended reals those are `lin` and `biasRelu` (GcnLayers), which is what the kernel's four regions were shown
  to leave, block by block. After rewriting the four dense stages the two terms are the same term.
  The equality holds for every extended-real input: no step divides, cancels or distributes, so finiteness is never used.
-/
import proofs.«149474_j60567628808242_1_alg».proof.Proof.RefRun
import proofs.«149474_j60567628808242_1_alg».proof.Proof.LayerTwo

set_option maxRecDepth 65536

noncomputable section

namespace Cert.Bridge

open Idealize.ShloMosaic Idealize.ShloMosaic.TcCoe Idealize.SL.Sem

/-- The reference's `dot_general` of all rows is the matrix product. -/
theorem ref_product (X : FVec Ideal Cert.ReferenceIdeal.S100000x128 .f32) (W : FVec Ideal Cert.ReferenceIdeal.S128x128 .f32) :
    Host.dotGeneral Cert.ReferenceIdeal.dot_S100000x128_S128x128_S100000x128_1_0_0_1_n_n none X W
      = Cert.Gcn.lin (R := 100000) (K := 128) (C := 128) X W :=
  Cert.Gcn.host_lin _ rfl X W

/-- From memories that agree on the six arguments, the reference's result term is the kernel's output. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v65 m' c = Cert.KernelIdeal.LayerTwo.output m c := by
  unfold Cert.ReferenceIdeal.ValueP.res_main_v65
  rw [h0, h1, h2, h3, h4, h5]
  rw [Cert.Gcn.host_biasRelu, ref_product, Cert.Gcn.host_biasRelu, ref_product]
  unfold Cert.KernelIdeal.LayerTwo.output Cert.KernelIdeal.LayerTwo.aggregate Cert.KernelIdeal.LayerTwo.product
    Cert.KernelIdeal.LayerOne.hidden Cert.KernelIdeal.LayerOne.aggregate Cert.KernelIdeal.LayerOne.product
  unfold Cert.KernelIdeal.LayerOne.wgt Cert.KernelIdeal.LayerOne.src Cert.KernelIdeal.LayerOne.dst
  unfold Cert.KernelIdeal.Glue.propagate Cert.KernelIdeal.Glue.edgeWeight Cert.KernelIdeal.Glue.edgeWeightOf
    Cert.KernelIdeal.Glue.invSqrtDegree Cert.KernelIdeal.Glue.invSqrtOf Cert.KernelIdeal.Glue.degreePositive
    Cert.KernelIdeal.Glue.degreeRsqrt Cert.KernelIdeal.Glue.zeroScalar Cert.KernelIdeal.Glue.degree
    Cert.KernelIdeal.Glue.wrap Cert.KernelIdeal.Glue.srcs Cert.KernelIdeal.Glue.dsts
  rfl

end Cert.Bridge

end
-- ==== Proof.lean ====
/-
  The proof of `Cert.Claim`: a two-layer graph convolution, `max (Â · (max (Â · (x · W₁) + b₁, 0) · W₂) + b₂, 0)` with
  `Â = D^(-1/2) (A + I) D^(-1/2)` applied as gather, scale, scatter-add over the edge list, computed by a kernel whose four
  pallas_calls take the two matrix products and the two bias-and-ReLU steps in blocks of 2000 rows, against the same network
  written with whole-array host operations.
  * The three frames: the two kernel programs' are the generated frame certificates (every region is of the class whose
    frame is generated whole); the reference has no kernel, and its frame is its run with the result forgotten.
  * `preserves`: the idealization rewrote no operation, so the conjunct is `True`.
  * `algebraic`: the idealized kernel's run ends with the result array at `output` (KernelRun: the run with its final memory
    read; FirstProduct … SecondActivation: what each region leaves; Edges, LayerOne, LayerTwo: the buffers from boundary to
    boundary), and the reference's run ends at the same `output` of arguments that agree (Bridge). On the extended reals the
    two programs are the same sums of the same products in the same host glue; the precondition is never opened.
-/
import proofs.«149474_j60567628808242_1_alg».proof.Defs
import proofs.«149474_j60567628808242_1_alg».proof.Proof.Gen.Kernel
import proofs.«149474_j60567628808242_1_alg».proof.Proof.Gen.Kernel.Skeleton
import proofs.«149474_j60567628808242_1_alg».proof.Proof.Gen.Kernel.Launch
import proofs.«149474_j60567628808242_1_alg».proof.Proof.Gen.Kernel.Points
import proofs.«149474_j60567628808242_1_alg».proof.Proof.Gen.Kernel.Frame
import proofs.«149474_j60567628808242_1_alg».proof.Proof.Gen.KernelIdeal
import proofs.«149474_j60567628808242_1_alg».proof.Proof.Gen.KernelIdeal.Skeleton
import proofs.«149474_j60567628808242_1_alg».proof.Proof.Gen.KernelIdeal.Launch
import proofs.«149474_j60567628808242_1_alg».proof.Proof.Gen.KernelIdeal.Points
import proofs.«149474_j60567628808242_1_alg».proof.Proof.Gen.KernelIdeal.Frame
import proofs.«149474_j60567628808242_1_alg».proof.Proof.Gen.ReferenceIdeal
import proofs.«149474_j60567628808242_1_alg».proof.Proof.Gen.Pre_finite_inputs
import proofs.«149474_j60567628808242_1_alg».proof.Proof.KernelRun
import proofs.«149474_j60567628808242_1_alg».proof.Proof.Bridge
import Idealize.ShloMosaic.Adequacy
import Idealize.ShloMosaic.Init

noncomputable section

namespace Cert.Proof

open Idealize.ShloMosaic Idealize.SL.Sem Cert.Kernel

/-- The idealized kernel and the reference, from memories agreeing on the arguments, both end with the result at `output`. -/
theorem algebraic : Cert.algebraic_KernelIdeal_ReferenceIdeal := by
  intro m ρ m' ρ' _ hagree
  refine ⟨fun c => Cert.KernelIdeal.LayerTwo.output m c, ?_, ?_⟩
  · exact (θ_run Cert.KernelIdeal.defs _ _).mono
      (fun _ h c => ⟨(h c).1.trans (Cert.KernelIdeal.LayerTwo.result m ρ c), (h c).2⟩)
      (Cert.KernelIdeal.Run.run (F := Ideal) m ρ)
  · exact (θ_run Cert.ReferenceIdeal.defs _ _).mono
      (fun _ h c => ⟨(h c).1.trans (Cert.Bridge.reference_result m m' c (hagree c).1 (hagree c).2.1 (hagree c).2.2.1
          (hagree c).2.2.2.1 (hagree c).2.2.2.2.1 (hagree c).2.2.2.2.2), (h c).2⟩)
      (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
